-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x32 : Shape := ⟨2, ![1600000, 32]⟩
abbrev S128x64 : Shape := ⟨2, ![128, 64]⟩
abbrev S64 : Shape := ⟨1, ![64]⟩
abbrev S32x64 : Shape := ⟨2, ![32, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_

variable [Facts]

def fn_part1 {F : FTy → Type} [FloatOps F] (main_arg5 : FVec F S32x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000x32 .f32) (main_arg3 : FVec F S128x64 .f32) (main_arg4 : FVec F S64 .f32) (main_arg5 : FVec F S32x64 .f32) (main_arg6 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000x32 : Shape := ⟨2, ![1600000, 32]⟩
abbrev S128x64 : Shape := ⟨2, ![128, 64]⟩
abbrev S64 : Shape := ⟨1, ![64]⟩
abbrev S32x64 : Shape := ⟨2, ![32, 64]⟩
abbrev S100000x64 : Shape := ⟨2, ![100000, 64]⟩
abbrev S5000x128 : Shape := ⟨2, ![5000, 128]⟩
abbrev S5000x64 : Shape := ⟨2, ![5000, 64]⟩
abbrev S1x64 : Shape := ⟨2, ![1, 64]⟩
abbrev S1600000x64 : Shape := ⟨2, ![1600000, 64]⟩
abbrev S16000x32 : Shape := ⟨2, ![16000, 32]⟩
abbrev S16000x64 : Shape := ⟨2, ![16000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000 : Shape := ⟨1, ![100000]⟩
abbrev S100000x1 : Shape := ⟨2, ![100000, 1]⟩

abbrev nBuf : Space → Nat
  | .hbm => 39
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S128x64, .f32⟩
  | .hbm, ⟨4, _⟩ => ⟨S64, .f32⟩
  | .hbm, ⟨5, _⟩ => ⟨S32x64, .f32⟩
  | .hbm, ⟨6, _⟩ => ⟨S64, .f32⟩
  | .hbm, ⟨7, _⟩ => ⟨S100000x64, .f32⟩
  | .hbm, ⟨8, _⟩ => ⟨S1600000x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S64, .f32⟩
  | .local _ .vmem, ⟨4, _⟩ => ⟨S5000x64, .f32⟩
  | .local _ .vmem, ⟨5, _⟩ => ⟨S5000x64, .f32⟩
  | .local _ .vmem, ⟨6, _⟩ => ⟨S16000x32, .f32⟩
  | .local _ .vmem, ⟨7, _⟩ => ⟨S16000x32, .f32⟩
  | .local _ .vmem, ⟨8, _⟩ => ⟨S32x64, .f32⟩
  | .local _ .vmem, ⟨9, _⟩ => ⟨S64, .f32⟩
  | .local _ .vmem, ⟨10, _⟩ => ⟨S16000x64, .f32⟩
  | .local _ .vmem, ⟨11, _⟩ => ⟨S16000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  inb_S16000x32_S16000x32_0_0 : ∀ a, (![0, 0] : Fin 2 → Nat) a + S16000x32.size a ≤ S16000x32.size a
  h_S16000x32 : 0 < S16000x32.numel
  inb_S32x64_S32x64_0_0 : ∀ a, (![0, 0] : Fin 2 → Nat) a + S32x64.size a ≤ S32x64.size a
  h_S32x64 : 0 < S32x64.numel
  broadcasts_S1x64_S16000x64 : S1x64.Broadcasts S16000x64
  inb_S16000x64_S16000x64_0_0 : ∀ a, (![0, 0] : Fin 2 → Nat) a + S16000x64.size a ≤ S16000x64.size a
  h_S16000x64 : 0 < S16000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S5000x128_S128x64_S5000x64_1_0_0_1_n_n_wf : DotDims.WF S5000x128 S128x64 S5000x64 [1] [0] [0] [1] [] []
  dot_S16000x32_S32x64_S16000x64_1_0_0_1_n_n_wf : DotDims.WF S16000x32 S32x64 S16000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x32.size a ≤ S1600000x32.size a
  hwx1_0 : ∀ i : grid1.Coords, EltTy.bits .f32 = 32 ∨ (Rect.block (s := S1600000x32) S16000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x64.size a ≤ S32x64.size a
  hwx1_1 : ∀ i : grid1.Coords, EltTy.bits .f32 = 32 ∨ (Rect.block (s := S32x64) S32x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16000x64.size a ≤ S1600000x64.size a
  hwx1_3 : ∀ i : grid1.Coords, EltTy.bits .f32 = 32 ∨ (Rect.block (s := S1600000x64) S16000x64.size (cc1_transform_3 i) (hinb1_3 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S16000x32_S32x64_S16000x64_1_0_0_1_n_n : DotDims S16000x32 S32x64 S16000x64 where
  lhsContracting := [1]
  rhsContracting := [0]
  lhsNonContracting := [0]
  rhsNonContracting := [1]
  lhsBatch := []
  rhsBatch := []
  wf := dot_S16000x32_S32x64_S16000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S16000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S32x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S16000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x32 : Shape := ⟨2, ![1600000, 32]⟩
abbrev S128x64 : Shape := ⟨2, ![128, 64]⟩
abbrev S64 : Shape := ⟨1, ![64]⟩
abbrev S32x64 : Shape := ⟨2, ![32, 64]⟩
abbrev S100000x64 : Shape := ⟨2, ![100000, 64]⟩
abbrev S1x64 : Shape := ⟨2, ![1, 64]⟩
abbrev S1600000x64 : Shape := ⟨2, ![1600000, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000 : Shape := ⟨1, ![100000]⟩
abbrev S100000x1 : Shape := ⟨2, ![100000, 1]⟩

abbrev nBuf : Space → Nat
  | .hbm => 45
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S128x64, .f32⟩
  | .hbm, ⟨4, _⟩ => ⟨S64, .f32⟩
  | .hbm, ⟨5, _⟩ => ⟨S32x64, .f32⟩
  | .hbm, ⟨6, _⟩ => ⟨S64, .f32⟩
  | .hbm, ⟨7, _⟩ => ⟨S100000x64, .f32⟩
  | .hbm, ⟨8, _⟩ => ⟨S1x64, .f32⟩
  | .hbm, ⟨9, _⟩ => ⟨S100000x64, .f32⟩
  | .hbm, ⟨10, _⟩ => ⟨S100000x64, .f32⟩
  | .hbm, ⟨11, _⟩ => ⟨S1600000x64, .f32⟩
  | .hbm, ⟨12, _⟩ => ⟨S1x64, .f32⟩
  | .hbm, ⟨13, _⟩ => ⟨S1600000x64, .f32⟩
  | .hbm, ⟨14, _⟩ => ⟨S1600000x64, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S1600000x64, .f32⟩
  | .hbm, ⟨28, _⟩ => ⟨S1600000x64, .f32⟩
  | .hbm, ⟨29, _⟩ => ⟨S_, .f32⟩
  | .hbm, ⟨30, _⟩ => ⟨S100000x64, .f32⟩
  | .hbm, ⟨31, _⟩ => ⟨S1600000x1, .i32⟩
  | .hbm, ⟨32, _⟩ => ⟨S100000x64, .f32⟩
  | .hbm, ⟨33, _⟩ => ⟨S_, .f32⟩
  | .hbm, ⟨34, _⟩ => ⟨S1600000, .f32⟩
  | .hbm, ⟨35, _⟩ => ⟨S_, .f32⟩
  | .hbm, ⟨36, _⟩ => ⟨S100000, .f32⟩
  | .hbm, ⟨37, _⟩ => ⟨S1600000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x64, .f32⟩
  | .hbm, ⟨44, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_v12 : Ref sig .tc := ⟨.hbm, 20, rfl⟩
abbrev main_v13 : Ref sig .tc := ⟨.hbm, 21, rfl⟩
abbrev main_c_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1600000x64_0_1 : S1x64.BroadcastsInDim S1600000x64 (![0, 1] : Fin 2 → Fin S1600000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x128_S128x64_S100000x64_1_0_0_1_n_n_wf : DotDims.WF S100000x128 S128x64 S100000x64 [1] [0] [0] [1] [] []
  dot_S1600000x32_S32x64_S1600000x64_1_0_0_1_n_n_wf : DotDims.WF S1600000x32 S32x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S1600000x32_S32x64_S1600000x64_1_0_0_1_n_n : DotDims S1600000x32 S32x64 S1600000x64 where
  lhsContracting := [1]
  rhsContracting := [0]
  lhsNonContracting := [0]
  rhsNonContracting := [1]
  lhsBatch := []
  rhsBatch := []
  wf := dot_S1600000x32_S32x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf

class Facts : Prop extends Facts₀ where

variable [Facts]
-- ==== Proof.KernelRun.lean ====
/-
  The idealized kernel's run with its result named.

  @main is three segments: the node layer's region, the edge layer's region, and a stretch of thirty host operations. The
  contents of every unscoped buffer at the segment boundaries are a fold from the launch memory: after the first region
  its four arrays hold what its write-backs leave, after the second likewise, and after the host stretch every buffer
  holds what the stretch's operations leave. Every weakly fair execution terminates in a state whose unscoped buffers hold
  that last fold; read at the result buffer and at the seven arguments, that is the statement below.
-/
import proofs.«101363_j35837207117863_2_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the seven argument arrays as launched. -/
theorem run : θ_run defs (onTc (τ := τ) (main (F := F))) ⟨m, fun _ => 0, ρ⟩ (fun r => ∀ c : Dev nD,
      r.2.mem ((c.tc : Thread nD τ).loc main_v25) = W3 m ρ c (Proc.devRef .tc main_v25)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v25 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.NamedRun

end
-- ==== Proof.Aggregate.lean ====
/-
  The mean aggregation of messages over a graph's edges, as one function of the edge list, the projected node features
  h : [100000, 64] and the projected edge attributes e : [1600000, 64].

  The edge list is an integer array [2, 1600000]: its first row holds each edge's target node, its second row each edge's
  source node. A negative source index is wrapped once by the number of nodes. The message of an edge is its source node's
  row of h plus the edge's own row of e. The messages are summed into their target nodes' rows (an accumulating scatter
  into zeros), the number of edges per target node is counted the same way (a scatter of ones into zeros), and every row of
  sums is divided by its count, or by one where the count is below one.

  Both programs end in exactly this sequence of host operations; they differ only in how h and e are produced. So the
  sequence is stated once, over the operations' dimension records and shape side conditions as parameters, and each
  program's result is this function of its own h and e.
-/
import Idealize.ShloMosaic.PureOps

noncomputable section

namespace Cert.Aggregate

open Idealize.ShloMosaic

abbrev S2x1600000 : Shape := ⟨2, ![2, 1600000]⟩
abbrev S1x1600000 : Shape := ⟨2, ![1, 1600000]⟩
abbrev S1600000 : Shape := ⟨1, ![1600000]⟩
abbrev S1600000x1 : Shape := ⟨2, ![1600000, 1]⟩
abbrev S1600000x64 : Shape := ⟨2, ![1600000, 64]⟩
abbrev S100000x64 : Shape := ⟨2, ![100000, 64]⟩
abbrev S100000x1 : Shape := ⟨2, ![100000, 1]⟩
abbrev S100000 : Shape := ⟨1, ![100000]⟩
abbrev S_ : Shape := ⟨0, ![]⟩

variable {F : FTy → Type} [FloatOps F]

variable (gatherRows : GatherDims S100000x64 S1600000x1 S1600000x64)
  (scatterRows : ScatterDims S100000x64 S1600000x1 S1600000x64)
  (scatterOnes : ScatterDims S100000 S1600000x1 S1600000)
  (hrow0 : S2x1600000.Slices ![0, 0] S1x1600000) (hrow1 : S2x1600000.Slices ![1, 0] S1x1600000)
  (hflat : S1x1600000.ShapeCasts S1600000)
  (hedges : S_.BroadcastsInDim S1600000 (![] : Fin 0 → Fin S1600000.rank))
  (hcolumn : S1600000.BroadcastsInDim S1600000x1 (![0] : Fin 1 → Fin S1600000x1.rank))
  (hzeros : S_.BroadcastsInDim S100000x64 (![] : Fin 0 → Fin S100000x64.rank))
  (hnodes : S_.BroadcastsInDim S100000 (![] : Fin 0 → Fin S100000.rank))
  (hkeep : S100000.BroadcastsInDim S100000x1 (![0] : Fin 1 → Fin S100000x1.rank))
  (hwide : S100000x1.BroadcastsInDim S100000x64 (![0, 1] : Fin 2 → Fin S100000x64.rank))

/-- Each edge's target node: the edge list's first row. -/
def targets (idx : (⟨S2x1600000, .i32⟩ : BufTy).Contents (Elt F)) : (⟨S1600000, .i32⟩ : BufTy).Contents (Elt F) :=
  shapeCast S1600000 (extractStridedSlice S1x1600000 ![0, 0] idx hrow0) hflat

/-- Each edge's source node: the edge list's second row, a negative index wrapped once by the number of nodes. -/
def sources (idx : (⟨S2x1600000, .i32⟩ : BufTy).Contents (Elt F)) : (⟨S1600000, .i32⟩ : BufTy).Contents (Elt F) :=
  select
    (cmpi .slt (shapeCast S1600000 (extractStridedSlice S1x1600000 ![1, 0] idx hrow1) hflat)
      (broadcastInDim S1600000 ![] hedges (constantI S_ 32 0#32)))
    (addi (shapeCast S1600000 (extractStridedSlice S1x1600000 ![1, 0] idx hrow1) hflat)
      (broadcastInDim S1600000 ![] hedges (constantI S_ 32 100000#32)))
    (shapeCast S1600000 (extractStridedSlice S1x1600000 ![1, 0] idx hrow1) hflat)

/-- Each edge's message: its source node's row of h plus its own row of e. -/
def messages (idx : (⟨S2x1600000, .i32⟩ : BufTy).Contents (Elt F)) (h : (⟨S100000x64, .f32⟩ : BufTy).Contents (Elt F))
    (e : (⟨S1600000x64, .f32⟩ : BufTy).Contents (Elt F)) : (⟨S1600000x64, .f32⟩ : BufTy).Contents (Elt F) :=
  addf (Host.gather gatherRows h (broadcastInDim S1600000x1 ![0] hcolumn (sources hrow1 hflat hedges idx))) e

/-- The messages summed into their target nodes' rows. -/
def sums (idx : (⟨S2x1600000, .i32⟩ : BufTy).Contents (Elt F)) (h : (⟨S100000x64, .f32⟩ : BufTy).Contents (Elt F))
    (e : (⟨S1600000x64, .f32⟩ : BufTy).Contents (Elt F)) : (⟨S100000x64, .f32⟩ : BufTy).Contents (Elt F) :=
  Host.scatterAdd scatterRows (broadcastInDim S100000x64 ![] hzeros (constant S_ .f32 0x00000000#32))
    (broadcastInDim S1600000x1 ![0] hcolumn (targets hrow0 hflat idx))
    (messages gatherRows hrow1 hflat hedges hcolumn idx h e)

/-- The number of edges into each node. -/
def counts (idx : (⟨S2x1600000, .i32⟩ : BufTy).Contents (Elt F)) : (⟨S100000, .f32⟩ : BufTy).Contents (Elt F) :=
  Host.scatterAdd scatterOnes (broadcastInDim S100000 ![] hnodes (constant S_ .f32 0x00000000#32))
    (broadcastInDim S1600000x1 ![0] hcolumn (targets hrow0 hflat idx))
    (broadcastInDim S1600000 ![] hedges (constant S_ .f32 0x3F800000#32))

/-- Every node's summed messages divided by its edge count, or by one where the count is below one. -/
def mean (idx : (⟨S2x1600000, .i32⟩ : BufTy).Contents (Elt F)) (h : (⟨S100000x64, .f32⟩ : BufTy).Contents (Elt F))
    (e : (⟨S1600000x64, .f32⟩ : BufTy).Contents (Elt F)) : (⟨S100000x64, .f32⟩ : BufTy).Contents (Elt F) :=
  Host.divf (sums gatherRows scatterRows hrow0 hrow1 hflat hedges hcolumn hzeros idx h e)
    (broadcastInDim S100000x64 ![0, 1] hwide (broadcastInDim S100000x1 ![0] hkeep
      (maximumf (counts scatterOnes hrow0 hflat hedges hcolumn hnodes idx)
        (broadcastInDim S100000 ![] hnodes (constant S_ .f32 0x3F800000#32)))))

end Cert.Aggregate

end
-- ==== Proof.LibPlainMatmul.lean ====
/-
  A plain matrix product read at an entry. For an M×K left operand and a K×N right operand contracted over the one
  shared axis (left axis 1 against right axis 0, no batch axis), the exact product into a zero accumulator has, at row r
  and column c, the value  Σ_k lhs(r, k) · rhs(k, c): the operand indices at output index (r, c) and contraction position
  k are (r, k) and (k, c).
-/
import Idealize.ShloMosaic.PureOps.Ideal.Laws
import Idealize.ShloMosaic.Lib.ValueIdx

noncomputable section

namespace PlainMatmul

open Idealize.ShloMosaic Idealize.ShloMosaic.ValueIdx

variable {M K N : ℕ}

/-- The left operand's row is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand's column is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The product into the zero accumulator, at (r, c), is Σ_k lhs(r, k) · rhs(k, c). -/
theorem apply_zero {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant (F := Ideal) ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end PlainMatmul

end
-- ==== Proof.Affine.lean ====
/-
  The affine map of a linear layer on the extended reals, entry by entry, and the two ways a program spells it.

  For a matrix x : [M, K], a weight w : [K, N] and a bias b : [N] the layer's output has, at row r and column c,
      Σ_k x[r, k] · w[k, c] + b[c].
  A kernel body computes this for a block of rows: both operands change float format on the way in (the identity on exact
  values), the product is taken into a zero accumulator, and the bias, kept as one row [1, N] and copied into every row,
  is added. Each row of the output depends on the same row of x only, so a block of R rows of the output is the affine map
  of the matching R rows of x.
-/
import Idealize.ShloMosaic.PureOps.Ideal.Laws
import Idealize.ShloMosaic.Lib.ValueIdx
import Idealize.ShloMosaic.Lib.ValueLayout
import proofs.«101363_j35837207117863_2_alg».proof.Proof.LibPlainMatmul

noncomputable section

namespace Cert.Affine

open Idealize.ShloMosaic Idealize.ShloMosaic.ValueIdx

variable {M K N : ℕ}

/-- Row r, column c of x·w + b. -/
def entry (x : FVec Ideal ⟨2, ![M, K]⟩ .f32) (w : FVec Ideal ⟨2, ![K, N]⟩ .f32) (b : FVec Ideal ⟨1, ![N]⟩ .f32)
    (r : Fin M) (c : Fin N) : EReal :=
  ∑ k : Fin K, x (ix2 r k) * w (ix2 k c) + b (ix1 c)

/-- The whole output x·w + b as an array. -/
def map (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => entry x w b (i 0) (i 1)

theorem map_apply (x : FVec Ideal ⟨2, ![M, K]⟩ .f32) (w : FVec Ideal ⟨2, ![K, N]⟩ .f32) (b : FVec Ideal ⟨1, ![N]⟩ .f32)
    (r : Fin M) (c : Fin N) : map x w b (ix2 r c) = entry x w b r c := rfl

/-- A block body's result at (r, c): the operands narrowed, multiplied into the zero accumulator, the bias row copied
    into every row and added — the affine map's entry. The record of contraction axes is any record equal to the plain
    one (left axis 1 against right axis 0). -/
theorem body_entry {ψ : FTy} (x : FVec Ideal ⟨2, ![M, K]⟩ .f32) (w : FVec Ideal ⟨2, ![K, N]⟩ .f32)
    (b : FVec Ideal ⟨1, ![N]⟩ .f32) (d : DotDims ⟨2, ![M, K]⟩ ⟨2, ![K, N]⟩ ⟨2, ![M, N]⟩) (hd : d = DotDims.plain M K N)
    (hψ : ψ.bits < FTy.f32.bits)
    (h1 : (⟨1, ![N]⟩ : Shape).ShapeCasts ⟨2, ![1, N]⟩) (h2 : (⟨2, ![1, N]⟩ : Shape).Broadcasts ⟨2, ![M, N]⟩)
    (r : Fin M) (c : Fin N) :
    addf (matmul d none (truncf ψ x hψ) (truncf ψ w hψ) (constant (F := Ideal) ⟨2, ![M, N]⟩ .f32 0x00000000#32))
        (broadcastTo ⟨2, ![M, N]⟩ (shapeCast ⟨2, ![1, N]⟩ b h1) h2) (ix2 r c)
      = entry x w b r c := by
  subst hd
  rw [addf_apply, broadcastTo_1b_ab_apply, shapeCast_a_1a_apply]
  unfold entry
  refine congrArg (· + b (ix1 c)) ?_
  exact PlainMatmul.apply_zero (truncf ψ x hψ) (truncf ψ w hψ) r c

end Cert.Affine

end
-- ==== Proof.RefAffine.lean ====
/-
  The reference's two linear layers are affine maps.

  The reference computes each layer on the whole arrays: a contraction of x's axis 1 against w's axis 0, then the bias
  copied into a row [1, N], that row copied into every row, and the two added. Read at (r, c) that is
  Σ_k x[r, k] · w[k, c] + b[c].
-/
import proofs.«101363_j35837207117863_2_alg».proof.Proof.Gen.ReferenceIdeal.Read
import proofs.«101363_j35837207117863_2_alg».proof.Proof.Affine

noncomputable section

namespace Cert.RefAffine

open Cert.ReferenceIdeal Cert.ReferenceIdeal.Read Idealize.ShloMosaic Idealize.ShloMosaic.ValueIdx

/-- The node layer: the reference's stage is the affine map of the node features. -/
theorem node_eq (x : (⟨S100000x128, .f32⟩ : BufTy).Contents (Elt Ideal)) (w : (⟨S128x64, .f32⟩ : BufTy).Contents (Elt Ideal))
    (b : (⟨S64, .f32⟩ : BufTy).Contents (Elt Ideal)) :
    val_main_v3 (F := Ideal) x w b = Cert.Affine.map (M := 100000) (K := 128) (N := 64) x w b := by
  funext i
  obtain ⟨r, c, rfl⟩ : ∃ (r : Fin 100000) (c : Fin 64), i = ix2 r c := ⟨i 0, i 1, eq_ix2 i⟩
  have el : ∀ k : Fin 128, lidx_main_v0 (ix2 r c) k = ix2 r k := fun k => funext fun a => Fin.ext (by
    match a with
    | ⟨0, _⟩ => rfl
    | ⟨1, _⟩ => rfl)
  have er : ∀ k : Fin 128, ridx_main_v0 (ix2 r c) k = ix2 k c := fun k => funext fun a => Fin.ext (by
    match a with
    | ⟨0, _⟩ => rfl
    | ⟨1, _⟩ => rfl)
  have eb : idx_main_v1 (idx_main_v2 (ix2 r c)) = ix1 c := funext fun a => Fin.ext (by
    match a with
    | ⟨0, _⟩ => rfl)
  rw [val_main_v3_apply, val_main_v0_apply, val_main_v2_apply, val_main_v1_apply, Cert.Affine.map_apply, eb]
  unfold Cert.Affine.entry
  simp only [el, er]
  rfl

/-- The edge layer: the reference's stage is the affine map of the edge attributes. -/
theorem edge_eq (x : (⟨S1600000x32, .f32⟩ : BufTy).Contents (Elt Ideal)) (w : (⟨S32x64, .f32⟩ : BufTy).Contents (Elt Ideal))
    (b : (⟨S64, .f32⟩ : BufTy).Contents (Elt Ideal)) :
    val_main_v7 (F := Ideal) x w b = Cert.Affine.map (M := 1600000) (K := 32) (N := 64) x w b := by
  funext i
  obtain ⟨r, c, rfl⟩ : ∃ (r : Fin 1600000) (c : Fin 64), i = ix2 r c := ⟨i 0, i 1, eq_ix2 i⟩
  have el : ∀ k : Fin 32, lidx_main_v4 (ix2 r c) k = ix2 r k := fun k => funext fun a => Fin.ext (by
    match a with
    | ⟨0, _⟩ => rfl
    | ⟨1, _⟩ => rfl)
  have er : ∀ k : Fin 32, ridx_main_v4 (ix2 r c) k = ix2 k c := fun k => funext fun a => Fin.ext (by
    match a with
    | ⟨0, _⟩ => rfl
    | ⟨1, _⟩ => rfl)
  have eb : idx_main_v5 (idx_main_v6 (ix2 r c)) = ix1 c := funext fun a => Fin.ext (by
    match a with
    | ⟨0, _⟩ => rfl)
  rw [val_main_v7_apply, val_main_v4_apply, val_main_v6_apply, val_main_v5_apply, Cert.Affine.map_apply, eb]
  unfold Cert.Affine.entry
  simp only [el, er]
  rfl

end Cert.RefAffine

end
-- ==== Proof.NodeRegion.lean ====
/-
  The node layer's region: the output array after the region is the affine map of the node features.

  The grid has 20 points. At point t the kernel body is handed rows 5000·t … 5000·t + 4999 of the node features (a block of
  5000 rows, all 128 columns), the whole weight matrix and the whole bias vector, and it writes rows 5000·t … 5000·t + 4999
  of the output. What it writes is the affine map of its block of rows; a row of the affine map depends on the same row of
  the input only, so the block written at point t is block t of the affine map of the whole arrays. The 20 blocks tile the
  100000 rows (row r lies in block r / 5000), so after the last write-back the output array is the affine map of the arrays the
  region was entered with.
-/
import proofs.«101363_j35837207117863_2_alg».proof.Proof.Gen.KernelIdeal.Frame
import Idealize.ShloMosaic.Lib.Pipeline.Value
import proofs.«101363_j35837207117863_2_alg».proof.Proof.Affine

set_option maxRecDepth 16384

noncomputable section

namespace Cert.KernelIdeal.NodeRegion

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-- The body's stored value at an entry of the block is the affine map's entry of the three loaded values. -/
theorem pay_entry (x0 : Vec Ideal S5000x128 .f32) (x1 : Vec Ideal S128x64 .f32) (x2 : Vec Ideal S64 .f32)
    (j : S5000x64.Idx) :
    k0_pay1 (F := Ideal) x0 x1 x2 j = Cert.Affine.entry (M := 5000) (K := 128) (N := 64) x0 x1 x2 (j 0) (j 1) := by
  obtain ⟨r, c, rfl⟩ : ∃ (r : Fin 5000) (c : Fin 64), j = ix2 r c := ⟨j 0, j 1, eq_ix2 j⟩
  unfold k0_pay1
  exact Cert.Affine.body_entry (M := 5000) (K := 128) (N := 64) x0 x1 x2 dot_S5000x128_S128x64_S5000x64_1_0_0_1_n_n rfl _ _ _ r c

theorem zero_offsets2 : (![0, 0] : Fin 2 → Nat) = fun _ => 0 := funext fun a => by fin_cases a <;> rfl
theorem zero_offsets1 : (![0] : Fin 1 → Nat) = fun _ => 0 := funext fun a => by fin_cases a <;> rfl

/-- The printed block-index maps over the grid: the input rows and the output rows move together, one block per point;
    the weight and the bias stay at block 0. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Where an entry of a block sits in its array: row (block index · 5000 + row in the block), same column. -/
theorem x_block (c : Dev nD) (t : Fin cfg0.N) (y : S5000x128.Idx) (i : S100000x128.Idx)
    (h0 : (i 0).val = t.val * 5000 + (y 0).val) (h1 : (i 1).val = (y 1).val) :
    iblk0 V c 0 t y = V c main_arg0 i := by
  show V c main_arg0 (((cfg0.win 0).blk t).view.emb y) = V c main_arg0 i
  refine congrArg _ (funext fun a => Fin.ext ?_)
  obtain ⟨e0, e1, -⟩ := block_indices t
  match a with
  | ⟨0, _⟩ => show win0_0.index t (0 : Fin 2) * 5000 + 1 * (y 0).val = (i 0).val; omega
  | ⟨1, _⟩ => show win0_0.index t (1 : Fin 2) * 128 + 1 * (y 1).val = (i 1).val; omega

/-- The weight's one block is the whole weight matrix. -/
theorem w_block (c : Dev nD) (t : Fin cfg0.N) (y : S128x64.Idx) : iblk0 V c 1 t y = V c main_arg3 y := by
  show V c main_arg3 (((cfg0.win 1).blk t).view.emb y) = V c main_arg3 y
  refine congrArg _ (funext fun a => Fin.ext ?_)
  obtain ⟨-, -, e2, e3, -⟩ := block_indices t
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- The bias's one block is the whole bias vector. -/
theorem b_block (c : Dev nD) (t : Fin cfg0.N) (y : S64.Idx) : iblk0 V c 2 t y = V c main_arg4 y := by
  show V c main_arg4 (((cfg0.win 2).blk t).view.emb y) = V c main_arg4 y
  refine congrArg _ (funext fun a => Fin.ext ?_)
  obtain ⟨-, -, -, -, e4, -⟩ := block_indices t
  match a with
  | ⟨0, _⟩ => show win0_2.index t (0 : Fin 1) * 64 + 1 * (y 0).val = (y 0).val; omega

/-- An entry of the affine map of point t's blocks is the entry of the affine map of the whole arrays at the row the block's
    row sits at: row t·5000 + r, same column. -/
theorem block_entry (c : Dev nD) (t : Fin cfg0.N) (r : Fin 5000) (q : Fin 64) (i : S100000x64.Idx)
    (h0 : (i 0).val = t.val * 5000 + r.val) (h1 : (i 1).val = q.val) :
    Cert.Affine.entry (M := 5000) (K := 128) (N := 64) (iblk0 V c 0 t) (iblk0 V c 1 t) (iblk0 V c 2 t) r q
      = Cert.Affine.map (M := 100000) (K := 128) (N := 64) (V c main_arg0) (V c main_arg3) (V c main_arg4) i := by
  obtain ⟨p, q', rfl⟩ : ∃ (p : Fin 100000) (q' : Fin 64), i = ix2 p q' := ⟨i 0, i 1, eq_ix2 i⟩
  obtain rfl : q' = q := Fin.ext h1
  rw [Cert.Affine.map_apply]
  unfold Cert.Affine.entry
  rw [b_block V c t (ix1 q')]
  refine congrArg (· + _) (Finset.sum_congr rfl fun k _ => ?_)
  rw [x_block V c t (ix2 r k) (ix2 p k) h0 rfl, w_block V c t (ix2 k q')]

/-- What point t writes back is block t of the affine map of the arrays the region was entered with. -/
theorem flushed_eq (c : Dev nD) (t : Fin cfg0.N) :
    (dat0 V c).flushed 3 t = ((cfg0.win 3).blk t).view.read (Elt Ideal)
      (Cert.Affine.map (M := 100000) (K := 128) (N := 64) (V c main_arg0) (V c main_arg3) (V c main_arg4)) := by
  show (cfg0.win 3).cut (grid0.coords t) ((dat0 V c).after 3 t) = _
  rw [after0_3]
  unfold out0_3
  rw [View.canon_unit_zero zero_offsets2]
  simp only [View.ld_unit_zero (S := S5000x128) zero_offsets2, View.ld_unit_zero (S := S128x64) zero_offsets2,
    View.ld_unit_zero (S := S64) zero_offsets1]
  funext j
  show k0_pay1 (iblk0 V c 0 t) (iblk0 V c 1 t) (iblk0 V c 2 t) j
    = Cert.Affine.map (M := 100000) (K := 128) (N := 64) (V c main_arg0) (V c main_arg3) (V c main_arg4) (((cfg0.win 3).blk t).view.emb j)
  refine (pay_entry _ _ _ j).trans ?_
  obtain ⟨-, -, -, -, -, e5, e6⟩ := block_indices t
  refine block_entry V c t (j 0) (j 1) _ ?_ ?_
  · show win0_3.index t (0 : Fin 2) * 5000 + 1 * (j 0).val = _; omega
  · show win0_3.index t (1 : Fin 2) * 64 + 1 * (j 1).val = _; omega

/-- An index of the output array is in point t's block iff each coordinate is in the block's range on its axis. -/
theorem mem_block (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v0).slice (win0_3.rect t)).set ↔ _
  rw [View.set_slice_whole, Rect.mem_set_unit]
  exact Iff.rfl

/-- Every row of the output lies in some point's block: row r in block r / 5000. -/
theorem cover (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_3 _, ?_⟩
  rw [mem_block]
  obtain ⟨-, -, -, -, -, e5, e6⟩ := block_indices ⟨(i 0).val / 5000, by rw [hN]; omega⟩
  intro a
  match a with
  | ⟨0, _⟩ =>
    show win0_3.index ⟨(i 0).val / 5000, _⟩ (0 : Fin 2) * 5000 ≤ (i 0).val ∧ (i 0).val < win0_3.index ⟨(i 0).val / 5000, _⟩ (0 : Fin 2) * 5000 + 5000
    rw [e5]; show (i 0).val / 5000 * 5000 ≤ (i 0).val ∧ (i 0).val < (i 0).val / 5000 * 5000 + 5000; omega
  | ⟨1, _⟩ =>
    show win0_3.index ⟨(i 0).val / 5000, _⟩ (1 : Fin 2) * 64 ≤ (i 1).val ∧ (i 1).val < win0_3.index ⟨(i 0).val / 5000, _⟩ (1 : Fin 2) * 64 + 64
    rw [e6]; omega

/-- The output array after the region: the affine map of the arrays the region was entered with. -/
theorem final (c : Dev nD) :
    (dat0 V c).arrAt 3 cfg0.N
      = Cert.Affine.map (M := 100000) (K := 128) (N := 64) (V c main_arg0) (V c main_arg3) (V c main_arg4) :=
  (dat0 V c).arrAt_eq_of_cover 3 _ (fun t _ => flushed_eq V c t) cover

end Cert.KernelIdeal.NodeRegion

end
-- ==== Proof.EdgeRegion.lean ====
/-
  The edge layer's region: the output array after the region is the affine map of the edge attributes.

  The grid has 100 points. At point t the kernel body is handed rows 16000·t … 16000·t + 15999 of the edge attributes (a block of
  16000 rows, all 32 columns), the whole weight matrix and the whole bias vector, and it writes rows 16000·t … 16000·t + 15999
  of the output. What it writes is the affine map of its block of rows; a row of the affine map depends on the same row of
  the input only, so the block written at point t is block t of the affine map of the whole arrays. The 100 blocks tile the
  1600000 rows (row r lies in block r / 16000), so after the last write-back the output array is the affine map of the arrays the
  region was entered with.
-/
import proofs.«101363_j35837207117863_2_alg».proof.Proof.Gen.KernelIdeal.Frame
import Idealize.ShloMosaic.Lib.Pipeline.Value
import proofs.«101363_j35837207117863_2_alg».proof.Proof.Affine

set_option maxRecDepth 16384

noncomputable section

namespace Cert.KernelIdeal.EdgeRegion

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-- The body's stored value at an entry of the block is the affine map's entry of the three loaded values. -/
theorem pay_entry (x0 : Vec Ideal S16000x32 .f32) (x1 : Vec Ideal S32x64 .f32) (x2 : Vec Ideal S64 .f32)
    (j : S16000x64.Idx) :
    k1_pay1 (F := Ideal) x0 x1 x2 j = Cert.Affine.entry (M := 16000) (K := 32) (N := 64) x0 x1 x2 (j 0) (j 1) := by
  obtain ⟨r, c, rfl⟩ : ∃ (r : Fin 16000) (c : Fin 64), j = ix2 r c := ⟨j 0, j 1, eq_ix2 j⟩
  unfold k1_pay1
  exact Cert.Affine.body_entry (M := 16000) (K := 32) (N := 64) x0 x1 x2 dot_S16000x32_S32x64_S16000x64_1_0_0_1_n_n rfl _ _ _ r c

theorem zero_offsets2 : (![0, 0] : Fin 2 → Nat) = fun _ => 0 := funext fun a => by fin_cases a <;> rfl
theorem zero_offsets1 : (![0] : Fin 1 → Nat) = fun _ => 0 := funext fun a => by fin_cases a <;> rfl

/-- The printed block-index maps over the grid: the input rows and the output rows move together, one block per point;
    the weight and the bias stay at block 0. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Where an entry of a block sits in its array: row (block index · 16000 + row in the block), same column. -/
theorem x_block (c : Dev nD) (t : Fin cfg1.N) (y : S16000x32.Idx) (i : S1600000x32.Idx)
    (h0 : (i 0).val = t.val * 16000 + (y 0).val) (h1 : (i 1).val = (y 1).val) :
    iblk1 V c 0 t y = V c main_arg2 i := by
  show V c main_arg2 (((cfg1.win 0).blk t).view.emb y) = V c main_arg2 i
  refine congrArg _ (funext fun a => Fin.ext ?_)
  obtain ⟨e0, e1, -⟩ := block_indices t
  match a with
  | ⟨0, _⟩ => show win1_0.index t (0 : Fin 2) * 16000 + 1 * (y 0).val = (i 0).val; omega
  | ⟨1, _⟩ => show win1_0.index t (1 : Fin 2) * 32 + 1 * (y 1).val = (i 1).val; omega

/-- The weight's one block is the whole weight matrix. -/
theorem w_block (c : Dev nD) (t : Fin cfg1.N) (y : S32x64.Idx) : iblk1 V c 1 t y = V c main_arg5 y := by
  show V c main_arg5 (((cfg1.win 1).blk t).view.emb y) = V c main_arg5 y
  refine congrArg _ (funext fun a => Fin.ext ?_)
  obtain ⟨-, -, e2, e3, -⟩ := block_indices t
  match a with
  | ⟨0, _⟩ => show win1_1.index t (0 : Fin 2) * 32 + 1 * (y 0).val = (y 0).val; omega
  | ⟨1, _⟩ => show win1_1.index t (1 : Fin 2) * 64 + 1 * (y 1).val = (y 1).val; omega

/-- The bias's one block is the whole bias vector. -/
theorem b_block (c : Dev nD) (t : Fin cfg1.N) (y : S64.Idx) : iblk1 V c 2 t y = V c main_arg6 y := by
  show V c main_arg6 (((cfg1.win 2).blk t).view.emb y) = V c main_arg6 y
  refine congrArg _ (funext fun a => Fin.ext ?_)
  obtain ⟨-, -, -, -, e4, -⟩ := block_indices t
  match a with
  | ⟨0, _⟩ => show win1_2.index t (0 : Fin 1) * 64 + 1 * (y 0).val = (y 0).val; omega

/-- An entry of the affine map of point t's blocks is the entry of the affine map of the whole arrays at the row the block's
    row sits at: row t·16000 + r, same column. -/
theorem block_entry (c : Dev nD) (t : Fin cfg1.N) (r : Fin 16000) (q : Fin 64) (i : S1600000x64.Idx)
    (h0 : (i 0).val = t.val * 16000 + r.val) (h1 : (i 1).val = q.val) :
    Cert.Affine.entry (M := 16000) (K := 32) (N := 64) (iblk1 V c 0 t) (iblk1 V c 1 t) (iblk1 V c 2 t) r q
      = Cert.Affine.map (M := 1600000) (K := 32) (N := 64) (V c main_arg2) (V c main_arg5) (V c main_arg6) i := by
  obtain ⟨p, q', rfl⟩ : ∃ (p : Fin 1600000) (q' : Fin 64), i = ix2 p q' := ⟨i 0, i 1, eq_ix2 i⟩
  obtain rfl : q' = q := Fin.ext h1
  rw [Cert.Affine.map_apply]
  unfold Cert.Affine.entry
  rw [b_block V c t (ix1 q')]
  refine congrArg (· + _) (Finset.sum_congr rfl fun k _ => ?_)
  rw [x_block V c t (ix2 r k) (ix2 p k) h0 rfl, w_block V c t (ix2 k q')]

/-- What point t writes back is block t of the affine map of the arrays the region was entered with. -/
theorem flushed_eq (c : Dev nD) (t : Fin cfg1.N) :
    (dat1 V c).flushed 3 t = ((cfg1.win 3).blk t).view.read (Elt Ideal)
      (Cert.Affine.map (M := 1600000) (K := 32) (N := 64) (V c main_arg2) (V c main_arg5) (V c main_arg6)) := by
  show (cfg1.win 3).cut (grid1.coords t) ((dat1 V c).after 3 t) = _
  rw [after1_3]
  unfold out1_3
  rw [View.canon_unit_zero zero_offsets2]
  simp only [View.ld_unit_zero (S := S16000x32) zero_offsets2, View.ld_unit_zero (S := S32x64) zero_offsets2,
    View.ld_unit_zero (S := S64) zero_offsets1]
  funext j
  show k1_pay1 (iblk1 V c 0 t) (iblk1 V c 1 t) (iblk1 V c 2 t) j
    = Cert.Affine.map (M := 1600000) (K := 32) (N := 64) (V c main_arg2) (V c main_arg5) (V c main_arg6) (((cfg1.win 3).blk t).view.emb j)
  refine (pay_entry _ _ _ j).trans ?_
  obtain ⟨-, -, -, -, -, e5, e6⟩ := block_indices t
  refine block_entry V c t (j 0) (j 1) _ ?_ ?_
  · show win1_3.index t (0 : Fin 2) * 16000 + 1 * (j 0).val = _; omega
  · show win1_3.index t (1 : Fin 2) * 64 + 1 * (j 1).val = _; omega

/-- An index of the output array is in point t's block iff each coordinate is in the block's range on its axis. -/
theorem mem_block (t : Fin cfg1.N) (i : S1600000x64.Idx) :
    i ∈ ((cfg1.win 3).blk t).view.set ↔ ∀ a : Fin 2, win1_3.index t a * S16000x64.size a ≤ (i a).val ∧ (i a).val < win1_3.index t a * S16000x64.size a + S16000x64.size a := by
  show i ∈ ((View.whole main_v1).slice (win1_3.rect t)).set ↔ _
  rw [View.set_slice_whole, Rect.mem_set_unit]
  exact Iff.rfl

/-- Every row of the output lies in some point's block: row r in block r / 16000. -/
theorem cover (i : S1600000x64.Idx) :
    ∃ t : Fin cfg1.N, (cfg1.win 3).flush t = true ∧ i ∈ ((cfg1.win 3).blk t).view.set := by
  have hi0 : (i 0).val < 1600000 := (i 0).isLt
  have hi1 : (i 1).val < 64 := (i 1).isLt
  have hN : cfg1.N = 100 := N_1
  refine ⟨⟨(i 0).val / 16000, by rw [hN]; omega⟩, flush1_3 _, ?_⟩
  rw [mem_block]
  obtain ⟨-, -, -, -, -, e5, e6⟩ := block_indices ⟨(i 0).val / 16000, by rw [hN]; omega⟩
  intro a
  match a with
  | ⟨0, _⟩ =>
    show win1_3.index ⟨(i 0).val / 16000, _⟩ (0 : Fin 2) * 16000 ≤ (i 0).val ∧ (i 0).val < win1_3.index ⟨(i 0).val / 16000, _⟩ (0 : Fin 2) * 16000 + 16000
    rw [e5]; show (i 0).val / 16000 * 16000 ≤ (i 0).val ∧ (i 0).val < (i 0).val / 16000 * 16000 + 16000; omega
  | ⟨1, _⟩ =>
    show win1_3.index ⟨(i 0).val / 16000, _⟩ (1 : Fin 2) * 64 ≤ (i 1).val ∧ (i 1).val < win1_3.index ⟨(i 0).val / 16000, _⟩ (1 : Fin 2) * 64 + 64
    rw [e6]; omega

/-- The output array after the region: the affine map of the arrays the region was entered with. -/
theorem final (c : Dev nD) :
    (dat1 V c).arrAt 3 cfg1.N
      = Cert.Affine.map (M := 1600000) (K := 32) (N := 64) (V c main_arg2) (V c main_arg5) (V c main_arg6) :=
  (dat1 V c).arrAt_eq_of_cover 3 _ (fun t _ => flushed_eq V c t) cover

end Cert.KernelIdeal.EdgeRegion

end
-- ==== Proof.Results.lean ====
/-
  Each program's result is the mean aggregation of the two affine maps.

  The reference computes both linear layers on the host and then aggregates; its result, one operation at a time, is the
  aggregation of its two stages, and each stage is an affine map.

  The idealized kernel computes the two layers in two regions and then aggregates on the host. The host stretch reads the
  edge list (an argument, untouched by either region), the first region's output array (untouched by the second region)
  and the second region's output array; each output array, after its region, is the affine map of that region's three
  input arrays, which are arguments and still hold their launch contents when the region is entered.
-/
import proofs.«101363_j35837207117863_2_alg».proof.Proof.Gen.ReferenceIdeal.Read
import proofs.«101363_j35837207117863_2_alg».proof.Proof.Aggregate
import proofs.«101363_j35837207117863_2_alg».proof.Proof.RefAffine
import proofs.«101363_j35837207117863_2_alg».proof.Proof.NodeRegion
import proofs.«101363_j35837207117863_2_alg».proof.Proof.EdgeRegion
import Idealize.ShloMosaic.Lib.StableHlo.Run

set_option maxRecDepth 16384

noncomputable section

namespace Cert.RefResult

open Cert.ReferenceIdeal Idealize.ShloMosaic

/-- The reference's last stage is the aggregation of the affine maps of its arguments. -/
theorem result_eq (x0 : (⟨S100000x128, .f32⟩ : BufTy).Contents (Elt Ideal)) (x1 : (⟨S2x1600000, .i32⟩ : BufTy).Contents (Elt Ideal))
    (x2 : (⟨S1600000x32, .f32⟩ : BufTy).Contents (Elt Ideal)) (x3 : (⟨S128x64, .f32⟩ : BufTy).Contents (Elt Ideal))
    (x4 : (⟨S64, .f32⟩ : BufTy).Contents (Elt Ideal)) (x5 : (⟨S32x64, .f32⟩ : BufTy).Contents (Elt Ideal))
    (x6 : (⟨S64, .f32⟩ : BufTy).Contents (Elt Ideal)) :
    Read.val_main_v31 (F := Ideal) x0 x1 x2 x3 x4 x5 x6
      = Cert.Aggregate.mean (F := Ideal) Cert.ReferenceIdeal.gather_S100000x64_S1600000x1_S1600000x64_1_0_n_n_0_1_164 Cert.ReferenceIdeal.scatter_S100000x64_S1600000x1_S1600000x64_1_0_0_1 Cert.ReferenceIdeal.scatter_S100000_S1600000x1_S1600000_n_0_0_1 Cert.ReferenceIdeal.Facts₀.slices_S2x1600000_S1x1600000_0_0 Cert.ReferenceIdeal.Facts₀.slices_S2x1600000_S1x1600000_1_0 Cert.ReferenceIdeal.Facts₀.shapeCasts_S1x1600000_S1600000 Cert.ReferenceIdeal.Facts₀.bcast_S_S1600000 Cert.ReferenceIdeal.Facts₀.bcast_S1600000_S1600000x1_0 Cert.ReferenceIdeal.Facts₀.bcast_S_S100000x64 Cert.ReferenceIdeal.Facts₀.bcast_S_S100000 Cert.ReferenceIdeal.Facts₀.bcast_S100000_S100000x1_0 Cert.ReferenceIdeal.Facts₀.bcast_S100000x1_S100000x64_0_1
          x1 (Cert.Affine.map (M := 100000) (K := 128) (N := 64) x0 x3 x4) (Cert.Affine.map (M := 1600000) (K := 32) (N := 64) x2 x5 x6) := by
  rw [← Cert.RefAffine.node_eq, ← Cert.RefAffine.edge_eq]
  rfl

end Cert.RefResult

namespace Cert.KernelResult

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The host stretch's result, from any contents W of the buffers it starts from: the aggregation of the edge list and
    the two regions' output arrays as W holds them. -/
theorem stretch_result (W : Valuation τ sig (Elt Ideal)) :
    StableHlo.after (hostOps2 (F := Ideal)) W (Proc.devRef .tc main_v25)
      = Cert.Aggregate.mean (F := Ideal) Cert.KernelIdeal.gather_S100000x64_S1600000x1_S1600000x64_1_0_n_n_0_1_164 Cert.KernelIdeal.scatter_S100000x64_S1600000x1_S1600000x64_1_0_0_1 Cert.KernelIdeal.scatter_S100000_S1600000x1_S1600000_n_0_0_1 Cert.KernelIdeal.Facts₀.slices_S2x1600000_S1x1600000_0_0 Cert.KernelIdeal.Facts₀.slices_S2x1600000_S1x1600000_1_0 Cert.KernelIdeal.Facts₀.shapeCasts_S1x1600000_S1600000 Cert.KernelIdeal.Facts₀.bcast_S_S1600000 Cert.KernelIdeal.Facts₀.bcast_S1600000_S1600000x1_0 Cert.KernelIdeal.Facts₀.bcast_S_S100000x64 Cert.KernelIdeal.Facts₀.bcast_S_S100000 Cert.KernelIdeal.Facts₀.bcast_S100000_S100000x1_0 Cert.KernelIdeal.Facts₀.bcast_S100000x1_S100000x64_0_1
          (W (Proc.devRef .tc main_arg1)) (W (Proc.devRef .tc main_v0)) (W (Proc.devRef .tc main_v1)) := by
  after_results_simp
  rfl

/-- The edge list when the host stretch starts: as launched. -/
theorem edges_kept (c : Dev nD) : W2 m ρ c (Proc.devRef .tc main_arg1) = m ((c : Thread nD τ).loc main_arg1) :=
  (W2_of_ne m ρ c main_arg1 (by decide)).trans (W1_of_ne m ρ c main_arg1 (by decide))

/-- The node layer's output when the host stretch starts: the affine map of the node features as launched. -/
theorem nodes_out (c : Dev nD) : W2 m ρ c (Proc.devRef .tc main_v0)
    = Cert.Affine.map (M := 100000) (K := 128) (N := 64) (m ((c : Thread nD τ).loc main_arg0)) (m ((c : Thread nD τ).loc main_arg3)) (m ((c : Thread nD τ).loc main_arg4)) :=
  (W2_of_ne m ρ c main_v0 (by decide)).trans ((W1_arr m ρ c 3).trans (Cert.KernelIdeal.NodeRegion.final (V0 m ρ) c))

/-- The edge layer's output when the host stretch starts: the affine map of the edge attributes as launched. -/
theorem edges_out (c : Dev nD) : W2 m ρ c (Proc.devRef .tc main_v1)
    = Cert.Affine.map (M := 1600000) (K := 32) (N := 64) (m ((c : Thread nD τ).loc main_arg2)) (m ((c : Thread nD τ).loc main_arg5)) (m ((c : Thread nD τ).loc main_arg6)) := by
  refine (W2_arr m ρ c 3).trans ((Cert.KernelIdeal.EdgeRegion.final (V1 m ρ) c).trans ?_)
  have e2 : V1 m ρ c main_arg2 = m ((c : Thread nD τ).loc main_arg2) := W1_of_ne m ρ c main_arg2 (by decide)
  have e5 : V1 m ρ c main_arg5 = m ((c : Thread nD τ).loc main_arg5) := W1_of_ne m ρ c main_arg5 (by decide)
  have e6 : V1 m ρ c main_arg6 = m ((c : Thread nD τ).loc main_arg6) := W1_of_ne m ρ c main_arg6 (by decide)
  rw [e2, e5, e6]

/-- The idealized kernel's result buffer after the run: the aggregation of the affine maps of the arguments as launched. -/
theorem result_eq (c : Dev nD) :
    W3 m ρ c (Proc.devRef .tc main_v25)
      = Cert.Aggregate.mean (F := Ideal) Cert.KernelIdeal.gather_S100000x64_S1600000x1_S1600000x64_1_0_n_n_0_1_164 Cert.KernelIdeal.scatter_S100000x64_S1600000x1_S1600000x64_1_0_0_1 Cert.KernelIdeal.scatter_S100000_S1600000x1_S1600000_n_0_0_1 Cert.KernelIdeal.Facts₀.slices_S2x1600000_S1x1600000_0_0 Cert.KernelIdeal.Facts₀.slices_S2x1600000_S1x1600000_1_0 Cert.KernelIdeal.Facts₀.shapeCasts_S1x1600000_S1600000 Cert.KernelIdeal.Facts₀.bcast_S_S1600000 Cert.KernelIdeal.Facts₀.bcast_S1600000_S1600000x1_0 Cert.KernelIdeal.Facts₀.bcast_S_S100000x64 Cert.KernelIdeal.Facts₀.bcast_S_S100000 Cert.KernelIdeal.Facts₀.bcast_S100000_S100000x1_0 Cert.KernelIdeal.Facts₀.bcast_S100000x1_S100000x64_0_1
          (m ((c : Thread nD τ).loc main_arg1))
          (Cert.Affine.map (M := 100000) (K := 128) (N := 64) (m ((c : Thread nD τ).loc main_arg0)) (m ((c : Thread nD τ).loc main_arg3)) (m ((c : Thread nD τ).loc main_arg4)))
          (Cert.Affine.map (M := 1600000) (K := 32) (N := 64) (m ((c : Thread nD τ).loc main_arg2)) (m ((c : Thread nD τ).loc main_arg5)) (m ((c : Thread nD τ).loc main_arg6))) := by
  refine (stretch_result (W2 m ρ c)).trans ?_
  rw [edges_kept m ρ c, nodes_out m ρ c, edges_out m ρ c]

end Cert.KernelResult

end
-- ==== Proof.lean ====
/-
  Mean aggregation of messages on a graph, with the two linear projections computed by tiled kernels: the kernel and its
  reference compute the same function on the extended reals.

  Both programs project the node features, h = x·W_node + b_node, and the edge attributes, e = attr·W_edge + b_edge, then
  form each edge's message h[source] + e[edge], sum the messages into their target nodes, count the edges per target node
  and divide each node's sum by its count (or by one where the count is below one).

  The reference computes h and e with one whole-array contraction each. The kernel computes them in two grids of row
  blocks (5000 rows of x per point, 16000 rows of the edge attributes per point); each block's body narrows both operands'
  float format — the identity on exact values —, multiplies into a zero accumulator and adds the bias row. A row of either
  projection depends only on the same row of its input, so the row blocks written back are the blocks of the whole-array
  affine map and together they tile the output. After the two regions both programs run the same host operations on the
  same edge list, h and e, so their results agree entry by entry; no property of the inputs beyond their being the same
  in both programs is used.

  The three frames: the two kernels' are the generated frame certificates; the reference has no kernel, and its frame is
  its run with the result dropped. The idealization rewrote no operation, so there is nothing to preserve.
-/
import proofs.«101363_j35837207117863_2_alg».proof.Defs
import proofs.«101363_j35837207117863_2_alg».proof.Proof.Gen.Kernel
import proofs.«101363_j35837207117863_2_alg».proof.Proof.Gen.Kernel.Skeleton
import proofs.«101363_j35837207117863_2_alg».proof.Proof.Gen.Kernel.Launch
import proofs.«101363_j35837207117863_2_alg».proof.Proof.Gen.Kernel.Points
import proofs.«101363_j35837207117863_2_alg».proof.Proof.Gen.Kernel.Frame
import proofs.«101363_j35837207117863_2_alg».proof.Proof.Gen.KernelIdeal
import proofs.«101363_j35837207117863_2_alg».proof.Proof.Gen.KernelIdeal.Skeleton
import proofs.«101363_j35837207117863_2_alg».proof.Proof.Gen.KernelIdeal.Launch
import proofs.«101363_j35837207117863_2_alg».proof.Proof.Gen.KernelIdeal.Points
import proofs.«101363_j35837207117863_2_alg».proof.Proof.Gen.KernelIdeal.Frame
import proofs.«101363_j35837207117863_2_alg».proof.Proof.Gen.ReferenceIdeal
import proofs.«101363_j35837207117863_2_alg».proof.Proof.Gen.ReferenceIdeal.Run
import proofs.«101363_j35837207117863_2_alg».proof.Proof.Gen.ReferenceIdeal.Read
import proofs.«101363_j35837207117863_2_alg».proof.Proof.Gen.Pre_finite_inputs
import proofs.«101363_j35837207117863_2_alg».proof.Proof.KernelRun
import proofs.«101363_j35837207117863_2_alg».proof.Proof.Results
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at the mean aggregation of the affine maps of the (agreeing) arguments. -/
theorem algebraic : Cert.algebraic_KernelIdeal_ReferenceIdeal := by
  intro m ρ m' ρ' _ hagree
  refine ⟨fun c => Cert.Aggregate.mean (F := Ideal) Cert.KernelIdeal.gather_S100000x64_S1600000x1_S1600000x64_1_0_n_n_0_1_164 Cert.KernelIdeal.scatter_S100000x64_S1600000x1_S1600000x64_1_0_0_1 Cert.KernelIdeal.scatter_S100000_S1600000x1_S1600000_n_0_0_1 Cert.KernelIdeal.Facts₀.slices_S2x1600000_S1x1600000_0_0 Cert.KernelIdeal.Facts₀.slices_S2x1600000_S1x1600000_1_0 Cert.KernelIdeal.Facts₀.shapeCasts_S1x1600000_S1600000 Cert.KernelIdeal.Facts₀.bcast_S_S1600000 Cert.KernelIdeal.Facts₀.bcast_S1600000_S1600000x1_0 Cert.KernelIdeal.Facts₀.bcast_S_S100000x64 Cert.KernelIdeal.Facts₀.bcast_S_S100000 Cert.KernelIdeal.Facts₀.bcast_S100000_S100000x1_0 Cert.KernelIdeal.Facts₀.bcast_S100000x1_S100000x64_0_1
      (m ((c.tc : Thread Cert.KernelIdeal.nD Cert.KernelIdeal.τ).loc Cert.KernelIdeal.main_arg1))
      (Cert.Affine.map (M := 100000) (K := 128) (N := 64) (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      (Cert.Affine.map (M := 1600000) (K := 32) (N := 64) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))),
    ?_, ?_⟩
  · exact (θ_run Cert.KernelIdeal.defs _ _).mono
      (fun r h c => ⟨(h c).1.trans (Cert.KernelResult.result_eq m ρ c), (h c).2⟩)
      (Cert.KernelIdeal.NamedRun.run (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6⟩ := hagree c
    rw [(h c).1, Cert.ReferenceIdeal.Read.val_main_v31_eq, Cert.RefResult.result_eq, a0, a1, a2, a3, a4, a5, a6]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
